-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x7x7x256 : Shape := ⟨4, ![4096, 7, 7, 256]⟩
abbrev S4096 : Shape := ⟨1, ![4096]⟩
abbrev S12544x1024 : Shape := ⟨2, ![12544, 1024]⟩
abbrev S1024 : Shape := ⟨1, ![1024]⟩
abbrev S1024x1024 : Shape := ⟨2, ![1024, 1024]⟩
abbrev S1024x324 : Shape := ⟨2, ![1024, 324]⟩
abbrev S324 : Shape := ⟨1, ![324]⟩
abbrev S_ : Shape := ⟨0, ![]⟩

class Facts : Prop where
  bcast_S_S4096x7x7x256 : S_.BroadcastsInDim S4096x7x7x256 (![] : Fin 0 → Fin S4096x7x7x256.rank)
  reducesTo_S4096x7x7x256_S_d0_1_2_3 : S4096x7x7x256.ReducesTo [0, 1, 2, 3] S_
  h_S_ : 0 < S_.numel
  bcast_S_S12544x1024 : S_.BroadcastsInDim S12544x1024 (![] : Fin 0 → Fin S12544x1024.rank)
  reducesTo_S12544x1024_S_d0_1 : S12544x1024.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024x324 : S_.BroadcastsInDim S1024x324 (![] : Fin 0 → Fin S1024x324.rank)
  reducesTo_S1024x324_S_d0_1 : S1024x324.ReducesTo [0, 1] S_
  bcast_S_S324 : S_.BroadcastsInDim S324 (![] : Fin 0 → Fin S324.rank)
  reducesTo_S324_S_d0 : S324.ReducesTo [0] S_

variable [Facts]

def fn_part1 {F : FTy → Type} [FloatOps F] (main_arg5 : FVec F S1024 .f32) (main_arg6 : FVec F S1024x324 .f32) (main_arg7 : FVec F S324 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg5
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x324 .f32 := Host.absf main_arg6
  let main_cst_8 : FVec F S_ .f32 := constant S_ .f32 0x7F800000#32
  let main_v25 : FVec F S1024x324 .f32 := broadcastInDim S1024x324 ![] bcast_S_S1024x324 main_cst_8
  let main_v26 : IVec S1024x324 1 := cmpf .olt main_v24 main_v25
  let main_c_9 : IVec S_ 1 := constantI S_ 1 1#1
  let main_v27 : IVec S_ 1 := (fun x v => Host.reduce IntOp.andi x v reducesTo_S1024x324_S_d0_1 h_S_) main_v26 main_c_9
  let main_v28 : IVec S_ 1 := andi main_v23 main_v27
  let main_v29 : FVec F S324 .f32 := Host.absf main_arg7
  let main_cst_10 : FVec F S_ .f32 := constant S_ .f32 0x7F800000#32
  let main_v30 : FVec F S324 .f32 := broadcastInDim S324 ![] bcast_S_S324 main_cst_10
  let main_v31 : IVec S324 1 := cmpf .olt main_v29 main_v30
  let main_c_11 : IVec S_ 1 := constantI S_ 1 1#1
  let main_v32 : IVec S_ 1 := (fun x v => Host.reduce IntOp.andi x v reducesTo_S324_S_d0 h_S_) main_v31 main_c_11
  let main_v33 : IVec S_ 1 := andi main_v28 main_v32
  main_v33

def fn {F : FTy → Type} [FloatOps F] (main_arg0 : FVec F S4096x7x7x256 .f32) (main_arg1 : IVec S4096 32) (main_arg2 : FVec F S12544x1024 .f32) (main_arg3 : FVec F S1024 .f32) (main_arg4 : FVec F S1024x1024 .f32) (main_arg5 : FVec F S1024 .f32) (main_arg6 : FVec F S1024x324 .f32) (main_arg7 : FVec F S324 .f32) : IVec S_ 1 :=
  let main_v0 : FVec F S4096x7x7x256 .f32 := Host.absf main_arg0
  let main_cst : FVec F S_ .f32 := constant S_ .f32 0x7F800000#32
  let main_v1 : FVec F S4096x7x7x256 .f32 := broadcastInDim S4096x7x7x256 ![] bcast_S_S4096x7x7x256 main_cst
  let main_v2 : IVec S4096x7x7x256 1 := cmpf .olt main_v0 main_v1
  let main_c : IVec S_ 1 := constantI S_ 1 1#1
  let main_v3 : IVec S_ 1 := (fun x v => Host.reduce IntOp.andi x v reducesTo_S4096x7x7x256_S_d0_1_2_3 h_S_) main_v2 main_c
  let main_v4 : FVec F S12544x1024 .f32 := Host.absf main_arg2
  let main_cst_0 : FVec F S_ .f32 := constant S_ .f32 0x7F800000#32
  let main_v5 : FVec F S12544x1024 .f32 := broadcastInDim S12544x1024 ![] bcast_S_S12544x1024 main_cst_0
  let main_v6 : IVec S12544x1024 1 := cmpf .olt main_v4 main_v5
  let main_c_1 : IVec S_ 1 := constantI S_ 1 1#1
  let main_v7 : IVec S_ 1 := (fun x v => Host.reduce IntOp.andi x v reducesTo_S12544x1024_S_d0_1 h_S_) main_v6 main_c_1
  let main_v8 : IVec S_ 1 := andi main_v3 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg4
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg5 main_arg6 main_arg7 main_v13 main_v16
-- ==== Kernel.lean ====
abbrev S4096x7x7x256 : Shape := ⟨4, ![4096, 7, 7, 256]⟩
abbrev S4096 : Shape := ⟨1, ![4096]⟩
abbrev S12544x1024 : Shape := ⟨2, ![12544, 1024]⟩
abbrev S1024 : Shape := ⟨1, ![1024]⟩
abbrev S1024x1024 : Shape := ⟨2, ![1024, 1024]⟩
abbrev S1024x324 : Shape := ⟨2, ![1024, 324]⟩
abbrev S324 : Shape := ⟨1, ![324]⟩
abbrev S4096x12544 : Shape := ⟨2, ![4096, 12544]⟩
abbrev S_ : Shape := ⟨0, ![]⟩
abbrev S1024x384 : Shape := ⟨2, ![1024, 384]⟩
abbrev S1 : Shape := ⟨1, ![1]⟩
abbrev S384 : Shape := ⟨1, ![384]⟩
abbrev S1x1024 : Shape := ⟨2, ![1, 1024]⟩
abbrev S1x384 : Shape := ⟨2, ![1, 384]⟩
abbrev S4096x384 : Shape := ⟨2, ![4096, 384]⟩
abbrev S64x12544 : Shape := ⟨2, ![64, 12544]⟩
abbrev S64x384 : Shape := ⟨2, ![64, 384]⟩
abbrev S64x1024 : Shape := ⟨2, ![64, 1024]⟩
abbrev S4096x324 : Shape := ⟨2, ![4096, 324]⟩

abbrev nBuf : Space → Nat
  | .hbm => 27
  | .vmem => 10
  | .smem => 0
  | _ => 0

abbrev bufTy : (tb : Table) → Fin (tcTables nBuf tb) → BufTy
  | .hbm, ⟨0, _⟩ => ⟨S4096x7x7x256, .f32⟩
  | .hbm, ⟨1, _⟩ => ⟨S4096, .i32⟩
  | .hbm, ⟨2, _⟩ => ⟨S12544x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x324, .f32⟩
  | .hbm, ⟨7, _⟩ => ⟨S324, .f32⟩
  | .hbm, ⟨8, _⟩ => ⟨S4096x12544, .f32⟩
  | .hbm, ⟨9, _⟩ => ⟨S12544x1024, .bf16⟩
  | .hbm, ⟨10, _⟩ => ⟨S1024x1024, .bf16⟩
  | .hbm, ⟨11, _⟩ => ⟨S_, .f32⟩
  | .hbm, ⟨12, _⟩ => ⟨S1024x384, .f32⟩
  | .hbm, ⟨13, _⟩ => ⟨S_, .i32⟩
  | .hbm, ⟨14, _⟩ => ⟨S1, .i32⟩
  | .hbm, ⟨15, _⟩ => ⟨S1024x384, .f32⟩
  | .hbm, ⟨16, _⟩ => ⟨S_, .f32⟩
  | .hbm, ⟨17, _⟩ => ⟨S384, .f32⟩
  | .hbm, ⟨18, _⟩ => ⟨S_, .i32⟩
  | .hbm, ⟨19, _⟩ => ⟨S1, .i32⟩
  | .hbm, ⟨20, _⟩ => ⟨S384, .f32⟩
  | .hbm, ⟨21, _⟩ => ⟨S1024x384, .bf16⟩
  | .hbm, ⟨22, _⟩ => ⟨S1x1024, .f32⟩
  | .hbm, ⟨23, _⟩ => ⟨S1x1024, .f32⟩
  | .hbm, ⟨24, _⟩ => ⟨S1x384, .f32⟩
  | .hbm, ⟨25, _⟩ => ⟨S4096x384, .f32⟩
  | .hbm, ⟨26, _⟩ => ⟨S4096x324, .f32⟩
  | .local _ .vmem, ⟨0, _⟩ => ⟨S64x12544, .f32⟩
  | .local _ .vmem, ⟨1, _⟩ => ⟨S64x12544, .f32⟩
  | .local _ .vmem, ⟨2, _⟩ => ⟨S12544x1024, .bf16⟩
  | .local _ .vmem, ⟨3, _⟩ => ⟨S1x1024, .f32⟩
  | .local _ .vmem, ⟨4, _⟩ => ⟨S1024x1024, .bf16⟩
  | .local _ .vmem, ⟨5, _⟩ => ⟨S1x1024, .f32⟩
  | .local _ .vmem, ⟨6, _⟩ => ⟨S1024x384, .bf16⟩
  | .local _ .vmem, ⟨7, _⟩ => ⟨S1x384, .f32⟩
  | .local _ .vmem, ⟨8, _⟩ => ⟨S64x384, .f32⟩
  | .local _ .vmem, ⟨9, _⟩ => ⟨S64x384, .f32⟩
  | _, _ => ⟨S4096x7x7x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x12544 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S12544x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x384 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S64x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S4096x7x7x256_S4096x12544 : S4096x7x7x256.ShapeCasts S4096x12544
  bitsLt_bf16_f32 : FTy.bits .bf16 < FTy.bits .f32
  bcast_S_S1024x384 : S_.BroadcastsInDim S1024x384 (![] : Fin 0 → Fin S1024x384.rank)
  bcast_S_S1 : S_.BroadcastsInDim S1 (![] : Fin 0 → Fin S1.rank)
  bcast_S_S384 : S_.BroadcastsInDim S384 (![] : Fin 0 → Fin S384.rank)
  shapeCasts_S1024_S1x1024 : S1024.ShapeCasts S1x1024
  shapeCasts_S384_S1x384 : S384.ShapeCasts S1x384
  inb_S64x12544_S64x12544_0_0 : ∀ a, (![0, 0] : Fin 2 → Nat) a + S64x12544.size a ≤ S64x12544.size a
  h_S64x12544 : 0 < S64x12544.numel
  shapeCasts_S64x12544_S64x12544 : S64x12544.ShapeCasts S64x12544
  inb_S12544x1024_S12544x1024_0_0 : ∀ a, (![0, 0] : Fin 2 → Nat) a + S12544x1024.size a ≤ S12544x1024.size a
  h_S12544x1024 : 0 < S12544x1024.numel
  shapeCasts_S12544x1024_S12544x1024 : S12544x1024.ShapeCasts S12544x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S64x1024 : S1x1024.Broadcasts S64x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x384_S1024x384_0_0 : ∀ a, (![0, 0] : Fin 2 → Nat) a + S1024x384.size a ≤ S1024x384.size a
  h_S1024x384 : 0 < S1024x384.numel
  shapeCasts_S1024x384_S1024x384 : S1024x384.ShapeCasts S1024x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S64x384 : S1x384.Broadcasts S64x384
  inb_S64x384_S64x384_0_0 : ∀ a, (![0, 0] : Fin 2 → Nat) a + S64x384.size a ≤ S64x384.size a
  h_S64x384 : 0 < S64x384.numel
  slices_S4096x384_S4096x324_0_0 : S4096x384.Slices ![0, 0] S4096x324
  scatter_S1024x384_S1_S1024x324_01_n_1_0_wf : ScatterDims.WF S1024x384 S1 S1024x324 [0, 1] [] [1] 0
  scatter_S384_S1_S324_0_n_0_0_wf : ScatterDims.WF S384 S1 S324 [0] [] [0] 0
  dot_S64x12544_S12544x1024_S64x1024_1_0_0_1_n_n_wf : DotDims.WF S64x12544 S12544x1024 S64x1024 [1] [0] [0] [1] [] []
  dot_S64x1024_S1024x1024_S64x1024_1_0_0_1_n_n_wf : DotDims.WF S64x1024 S1024x1024 S64x1024 [1] [0] [0] [1] [] []
  dot_S64x1024_S1024x384_S64x384_1_0_0_1_n_n_wf : DotDims.WF S64x1024 S1024x384 S64x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x12544.size a ≤ S4096x12544.size a
  hwx0_0 : ∀ i : grid0.Coords, EltTy.bits .f32 = 32 ∨ (Rect.block (s := S4096x12544) S64x12544.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S12544x1024.size a ≤ S12544x1024.size a
  hwx0_1 : ∀ i : grid0.Coords, EltTy.bits .bf16 = 32 ∨ (Rect.block (s := S12544x1024) S12544x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x384.size a ≤ S1024x384.size a
  hwx0_5 : ∀ i : grid0.Coords, EltTy.bits .bf16 = 32 ∨ (Rect.block (s := S1024x384) S1024x384.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x384.size a ≤ S1x384.size a
  hwx0_6 : ∀ i : grid0.Coords, EltTy.bits .f32 = 32 ∨ (Rect.block (s := S1x384) S1x384.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S64x384.size a ≤ S4096x384.size a
  hwx0_7 : ∀ i : grid0.Coords, EltTy.bits .f32 = 32 ∨ (Rect.block (s := S4096x384) S64x384.size (cc0_transform_7 i) (hinb0_7 i)).WholeWords (EltTy.packing .f32)

variable [Facts₀]

def scatter_S1024x384_S1_S1024x324_01_n_1_0 : ScatterDims S1024x384 S1 S1024x324 where
  updateWindowDims := [0, 1]
  insertedWindowDims := []
  scatterDimsToOperandDims := [1]
  indexVectorDim := 0
  wf := scatter_S1024x384_S1_S1024x324_01_n_1_0_wf
def scatter_S384_S1_S324_0_n_0_0 : ScatterDims S384 S1 S324 where
  updateWindowDims := [0]
  insertedWindowDims := []
  scatterDimsToOperandDims := [0]
  indexVectorDim := 0
  wf := scatter_S384_S1_S324_0_n_0_0_wf
def dot_S64x12544_S12544x1024_S64x1024_1_0_0_1_n_n : DotDims S64x12544 S12544x1024 S64x1024 where
  lhsContracting := [1]
  rhsContracting := [0]
  lhsNonContracting := [0]
  rhsNonContracting := [1]
  lhsBatch := []
  rhsBatch := []
  wf := dot_S64x12544_S12544x1024_S64x1024_1_0_0_1_n_n_wf
def dot_S64x1024_S1024x1024_S64x1024_1_0_0_1_n_n : DotDims S64x1024 S1024x1024 S64x1024 where
  lhsContracting := [1]
  rhsContracting := [0]
  lhsNonContracting := [0]
  rhsNonContracting := [1]
  lhsBatch := []
  rhsBatch := []
  wf := dot_S64x1024_S1024x1024_S64x1024_1_0_0_1_n_n_wf
def dot_S64x1024_S1024x384_S64x384_1_0_0_1_n_n : DotDims S64x1024 S1024x384 S64x384 where
  lhsContracting := [1]
  rhsContracting := [0]
  lhsNonContracting := [0]
  rhsNonContracting := [1]
  lhsBatch := []
  rhsBatch := []
  wf := dot_S64x1024_S1024x384_S64x384_1_0_0_1_n_n_wf

abbrev win0_0 : Pipeline.Window sig grid0 :=
  Pipeline.Window.ofSpec (Memref.whole main_v0) S64x12544.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S12544x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1024x384.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S1x384.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v13) S64x384.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4096x7x7x256 : Shape := ⟨4, ![4096, 7, 7, 256]⟩
abbrev S4096 : Shape := ⟨1, ![4096]⟩
abbrev S12544x1024 : Shape := ⟨2, ![12544, 1024]⟩
abbrev S1024 : Shape := ⟨1, ![1024]⟩
abbrev S1024x1024 : Shape := ⟨2, ![1024, 1024]⟩
abbrev S1024x324 : Shape := ⟨2, ![1024, 324]⟩
abbrev S324 : Shape := ⟨1, ![324]⟩
abbrev S4096x12544 : Shape := ⟨2, ![4096, 12544]⟩
abbrev S4096x1024 : Shape := ⟨2, ![4096, 1024]⟩
abbrev S1x1024 : Shape := ⟨2, ![1, 1024]⟩
abbrev S_ : Shape := ⟨0, ![]⟩
abbrev S4096x324 : Shape := ⟨2, ![4096, 324]⟩
abbrev S1x324 : Shape := ⟨2, ![1, 324]⟩

abbrev nBuf : Space → Nat
  | .hbm => 27
  | .vmem => 0
  | .smem => 0
  | _ => 0

abbrev bufTy : (tb : Table) → Fin (tcTables nBuf tb) → BufTy
  | .hbm, ⟨0, _⟩ => ⟨S4096x7x7x256, .f32⟩
  | .hbm, ⟨1, _⟩ => ⟨S4096, .i32⟩
  | .hbm, ⟨2, _⟩ => ⟨S12544x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x324, .f32⟩
  | .hbm, ⟨7, _⟩ => ⟨S324, .f32⟩
  | .hbm, ⟨8, _⟩ => ⟨S4096x12544, .f32⟩
  | .hbm, ⟨9, _⟩ => ⟨S4096x1024, .f32⟩
  | .hbm, ⟨10, _⟩ => ⟨S1x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S4096x324, .f32⟩
  | .hbm, ⟨24, _⟩ => ⟨S1x324, .f32⟩
  | .hbm, ⟨25, _⟩ => ⟨S4096x324, .f32⟩
  | .hbm, ⟨26, _⟩ => ⟨S4096x324, .f32⟩
  | _, _ => ⟨S4096x7x7x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_call1_cst : Ref sig .tc := ⟨.hbm, 20, rfl⟩
abbrev main_call1_v0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩

abbrev nD : Nat := 1
abbrev τ : Topo := Topo.v7x

variable {F : FTy → Type} [FloatOps F]

class Facts₀ : Prop where
  shapeCasts_S4096x7x7x256_S4096x12544 : S4096x7x7x256.ShapeCasts S4096x12544
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  bcast_S_S4096x1024 : S_.BroadcastsInDim S4096x1024 (![] : Fin 0 → Fin S4096x1024.rank)
  bcast_S324_S1x324_1 : S324.BroadcastsInDim S1x324 (![1] : Fin 1 → Fin S1x324.rank)
  bcast_S1x324_S4096x324_0_1 : S1x324.BroadcastsInDim S4096x324 (![0, 1] : Fin 2 → Fin S4096x324.rank)
  dot_S4096x12544_S12544x1024_S4096x1024_1_0_0_1_n_n_wf : DotDims.WF S4096x12544 S12544x1024 S4096x1024 [1] [0] [0] [1] [] []
  dot_S4096x1024_S1024x1024_S4096x1024_1_0_0_1_n_n_wf : DotDims.WF S4096x1024 S1024x1024 S4096x1024 [1] [0] [0] [1] [] []
  dot_S4096x1024_S1024x324_S4096x324_1_0_0_1_n_n_wf : DotDims.WF S4096x1024 S1024x324 S4096x324 [1] [0] [0] [1] [] []

variable [Facts₀]

def dot_S4096x12544_S12544x1024_S4096x1024_1_0_0_1_n_n : DotDims S4096x12544 S12544x1024 S4096x1024 where
  lhsContracting := [1]
  rhsContracting := [0]
  lhsNonContracting := [0]
  rhsNonContracting := [1]
  lhsBatch := []
  rhsBatch := []
  wf := dot_S4096x12544_S12544x1024_S4096x1024_1_0_0_1_n_n_wf
def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf
def dot_S4096x1024_S1024x324_S4096x324_1_0_0_1_n_n : DotDims S4096x1024 S1024x324 S4096x324 where
  lhsContracting := [1]
  rhsContracting := [0]
  lhsNonContracting := [0]
  rhsNonContracting := [1]
  lhsBatch := []
  rhsBatch := []
  wf := dot_S4096x1024_S1024x324_S4096x324_1_0_0_1_n_n_wf

class Facts : Prop extends Facts₀ where

variable [Facts]
-- ==== Proof.MlpSpec.lean ====
/-
  The function both programs compute: a three-layer perceptron applied to one row.

  For a row `x` of 12544 features, weights `w1` (12544 × 1024), `w2` (1024 × 1024), `w3` (1024 × N) and biases
  `b1`, `b2`, `b3`:

      hidden1 j = max (∑ k, x k · w1 k j + b1 j) 0
      hidden2 j = max (∑ k, hidden1 k · w2 k j + b2 j) 0
      out j     = ∑ k, hidden2 k · w3 k j + b3 j

  on the extended reals, the zero of the two rectifiers kept as the float word both programs print. Column `j` of the
  last layer reads only column `j` of `w3` and entry `j` of `b3`, so widening `w3` and `b3` by extra columns (the
  kernel pads 324 to 384) does not change the first columns of the result.
-/
import Idealize.ShloMosaic.PureOps.Ideal
import Idealize.ShloMosaic.Lib.ValueIdx

noncomputable section

open scoped BigOperators

namespace Cert.MlpSpec

open Idealize.ShloMosaic Idealize.ShloMosaic.ValueIdx

/-- The rectifier: the larger of the value and the float zero. -/
def relu (v : EReal) : EReal := max v (Ideal.ofBits .f32 0x00000000#32)

/-- One entry of a dense layer: the inner product of the incoming row with a weight column, plus the bias. -/
def dense {K : Nat} (h : Fin K → EReal) (wcol : Fin K → EReal) (b : EReal) : EReal := (∑ k : Fin K, h k * wcol k) + b

/-- The first hidden layer of a row. -/
def hidden1 (x : Fin 12544 → EReal) (w1 : Fin 12544 → Fin 1024 → EReal) (b1 : Fin 1024 → EReal) (j : Fin 1024) : EReal :=
  relu (dense x (fun k => w1 k j) (b1 j))

/-- The second hidden layer of a row. -/
def hidden2 (x : Fin 12544 → EReal) (w1 : Fin 12544 → Fin 1024 → EReal) (b1 : Fin 1024 → EReal)
    (w2 : Fin 1024 → Fin 1024 → EReal) (b2 : Fin 1024 → EReal) (j : Fin 1024) : EReal :=
  relu (dense (hidden1 x w1 b1) (fun k => w2 k j) (b2 j))

/-- The output layer of a row, `N` columns wide. -/
def out {N : Nat} (x : Fin 12544 → EReal) (w1 : Fin 12544 → Fin 1024 → EReal) (b1 : Fin 1024 → EReal)
    (w2 : Fin 1024 → Fin 1024 → EReal) (b2 : Fin 1024 → EReal) (w3 : Fin 1024 → Fin N → EReal) (b3 : Fin N → EReal)
    (j : Fin N) : EReal :=
  dense (hidden2 x w1 b1 w2 b2) (fun k => w3 k j) (b3 j)

/-- A column of the output layer depends on its own weight column and bias entry only: two last layers, of any
    widths, that agree on one column give the same output there. -/
theorem out_congr_col {N N' : Nat} (x : Fin 12544 → EReal) (w1 : Fin 12544 → Fin 1024 → EReal) (b1 : Fin 1024 → EReal)
    (w2 : Fin 1024 → Fin 1024 → EReal) (b2 : Fin 1024 → EReal) (w3 : Fin 1024 → Fin N → EReal) (b3 : Fin N → EReal)
    (w3' : Fin 1024 → Fin N' → EReal) (b3' : Fin N' → EReal) (j : Fin N) (j' : Fin N')
    (hw : ∀ k, w3' k j' = w3 k j) (hb : b3' j' = b3 j) :
    out x w1 b1 w2 b2 w3' b3' j' = out x w1 b1 w2 b2 w3 b3 j := by
  unfold out dense
  rw [hb]
  exact congrArg (· + b3 j) (Finset.sum_congr rfl fun k _ => congrArg (hidden2 x w1 b1 w2 b2 k * ·) (hw k))

/-- THE RESULT ARRAY: entry `(r, q)` is column `q` of the perceptron applied to row `r` of the flattened features
    `xf` (4096 rows of 12544), with the weights and biases read off their arrays. -/
def mlpArray (xf : (⟨2, ![4096, 12544]⟩ : Shape).Idx → EReal) (w1 : (⟨2, ![12544, 1024]⟩ : Shape).Idx → EReal)
    (b1 : (⟨1, ![1024]⟩ : Shape).Idx → EReal) (w2 : (⟨2, ![1024, 1024]⟩ : Shape).Idx → EReal)
    (b2 : (⟨1, ![1024]⟩ : Shape).Idx → EReal) (w3 : (⟨2, ![1024, 324]⟩ : Shape).Idx → EReal)
    (b3 : (⟨1, ![324]⟩ : Shape).Idx → EReal) : (⟨2, ![4096, 324]⟩ : Shape).Idx → EReal :=
  fun i => out (N := 324) (fun k => xf (ix2 (n0 := 4096) (i 0) k)) (fun k j => w1 (ix2 k j)) (fun j => b1 (ix1 j))
    (fun k j => w2 (ix2 k j)) (fun j => b2 (ix1 j)) (fun k j => w3 (ix2 k j)) (fun j => b3 (ix1 j)) (i 1)

/-- The same array with each bias given as a one-row matrix and the last layer `N` columns wide: the form in which
    the kernel's region holds its operands. -/
def mlpRowsArray {N : Nat} (xf : (⟨2, ![4096, 12544]⟩ : Shape).Idx → EReal) (w1 : (⟨2, ![12544, 1024]⟩ : Shape).Idx → EReal)
    (b1 : (⟨2, ![1, 1024]⟩ : Shape).Idx → EReal) (w2 : (⟨2, ![1024, 1024]⟩ : Shape).Idx → EReal)
    (b2 : (⟨2, ![1, 1024]⟩ : Shape).Idx → EReal) (w3 : (⟨2, ![1024, N]⟩ : Shape).Idx → EReal)
    (b3 : (⟨2, ![1, N]⟩ : Shape).Idx → EReal) : (⟨2, ![4096, N]⟩ : Shape).Idx → EReal :=
  fun i => out (N := N) (fun k => xf (ix2 (n0 := 4096) (i 0) k)) (fun k j => w1 (ix2 k j)) (fun j => b1 (ix2 (0 : Fin 1) j))
    (fun k j => w2 (ix2 k j)) (fun j => b2 (ix2 (0 : Fin 1) j)) (fun k j => w3 (ix2 k j)) (fun j => b3 (ix2 (0 : Fin 1) j)) (i 1)

end Cert.MlpSpec

end
-- ==== Proof.RefIsSpec.lean ====
/-
  The reference computes the perceptron.

  Its program is the textbook one: flatten the features to 4096 rows of 12544, then three times a matrix product plus
  a bias row, with a rectifier (the maximum with a zero splat) after the first two. Read at entry `(r, q)`, each matrix
  product is the sum over the contracted index, each bias broadcast reads the bias at the column, and each rectifier is
  the maximum with the float zero: layer by layer this is `hidden1`, `hidden2` and `out` of row `r`.
-/
import proofs.«170674_j57166014709942_2_alg».proof.Proof.Gen.ReferenceIdeal.Read
import proofs.«170674_j57166014709942_2_alg».proof.Proof.MlpSpec

noncomputable section

open scoped BigOperators

namespace Cert.RefIsSpec

open Idealize.ShloMosaic Idealize.ShloMosaic.ValueIdx Cert.ReferenceIdeal Cert.ReferenceIdeal.Read Cert.MlpSpec

variable (x0 : (⟨S4096x7x7x256, .f32⟩ : BufTy).Contents (Elt Ideal)) (x2 : (⟨S12544x1024, .f32⟩ : BufTy).Contents (Elt Ideal))
  (x3 : (⟨S1024, .f32⟩ : BufTy).Contents (Elt Ideal)) (x4 : (⟨S1024x1024, .f32⟩ : BufTy).Contents (Elt Ideal))
  (x5 : (⟨S1024, .f32⟩ : BufTy).Contents (Elt Ideal)) (x6 : (⟨S1024x324, .f32⟩ : BufTy).Contents (Elt Ideal))
  (x7 : (⟨S324, .f32⟩ : BufTy).Contents (Elt Ideal))

/-! ## The operand indices of the three products and the three bias broadcasts, by coordinates -/

theorem lidx1 (r : Fin 4096) (j : Fin 1024) (k : Fin 12544) : lidx_main_v1 (ix2 r j) k = ix2 r k :=
  funext fun a => Fin.ext (by match a with | ⟨0, _⟩ => rfl | ⟨1, _⟩ => rfl)
theorem ridx1 (r : Fin 4096) (j : Fin 1024) (k : Fin 12544) : ridx_main_v1 (ix2 r j) k = ix2 k j :=
  funext fun a => Fin.ext (by match a with | ⟨0, _⟩ => rfl | ⟨1, _⟩ => rfl)
theorem bidx1 (r : Fin 4096) (j : Fin 1024) : idx_main_v2 (idx_main_v3 (ix2 r j)) = ix1 j :=
  funext fun a => Fin.ext (by match a with | ⟨0, _⟩ => rfl)
theorem lidx2 (r : Fin 4096) (j : Fin 1024) (k : Fin 1024) : lidx_main_v6 (ix2 r j) k = ix2 r k :=
  funext fun a => Fin.ext (by match a with | ⟨0, _⟩ => rfl | ⟨1, _⟩ => rfl)
theorem ridx2 (r : Fin 4096) (j : Fin 1024) (k : Fin 1024) : ridx_main_v6 (ix2 r j) k = ix2 k j :=
  funext fun a => Fin.ext (by match a with | ⟨0, _⟩ => rfl | ⟨1, _⟩ => rfl)
theorem bidx2 (r : Fin 4096) (j : Fin 1024) : idx_main_v7 (idx_main_v8 (ix2 r j)) = ix1 j :=
  funext fun a => Fin.ext (by match a with | ⟨0, _⟩ => rfl)
theorem lidx3 (r : Fin 4096) (q : Fin 324) (k : Fin 1024) : lidx_main_v11 (ix2 r q) k = ix2 r k :=
  funext fun a => Fin.ext (by match a with | ⟨0, _⟩ => rfl | ⟨1, _⟩ => rfl)
theorem ridx3 (r : Fin 4096) (q : Fin 324) (k : Fin 1024) : ridx_main_v11 (ix2 r q) k = ix2 k q :=
  funext fun a => Fin.ext (by match a with | ⟨0, _⟩ => rfl | ⟨1, _⟩ => rfl)
theorem bidx3 (r : Fin 4096) (q : Fin 324) : idx_main_v12 (idx_main_v13 (ix2 r q)) = ix1 q :=
  funext fun a => Fin.ext (by match a with | ⟨0, _⟩ => rfl)

/-! ## Layer by layer -/

/-- The first rectified layer at `(r, j)`. -/
theorem hidden1_ref (r : Fin 4096) (j : Fin 1024) :
    val_main_v5 (F := Ideal) x0 x2 x3 (ix2 r j)
      = hidden1 (fun k => val_main_v0 (F := Ideal) x0 (ix2 r k)) (fun k j => x2 (ix2 k j)) (fun j => x3 (ix1 j)) j := by
  rw [val_main_v5_apply, val_main_v4_apply, val_main_v1_apply, val_main_v3_apply, val_main_v2_apply,
    val_main_call0_v0_apply, val_main_call0_cst_apply]
  simp only [lidx1, ridx1, bidx1]
  rfl

/-- The second rectified layer at `(r, j)`. -/
theorem hidden2_ref (r : Fin 4096) (j : Fin 1024) :
    val_main_v10 (F := Ideal) x0 x2 x3 x4 x5 (ix2 r j)
      = hidden2 (fun k => val_main_v0 (F := Ideal) x0 (ix2 r k)) (fun k j => x2 (ix2 k j)) (fun j => x3 (ix1 j))
          (fun k j => x4 (ix2 k j)) (fun j => x5 (ix1 j)) j := by
  rw [val_main_v10_apply, val_main_v9_apply, val_main_v6_apply, val_main_v8_apply, val_main_v7_apply,
    val_main_call1_v0_apply, val_main_call1_cst_apply]
  simp only [lidx2, ridx2, bidx2, hidden1_ref]
  rfl

/-- THE REFERENCE'S RESULT is the perceptron of the flattened features, entry by entry. -/
theorem result_eq :
    val_main_v14 (F := Ideal) x0 x2 x3 x4 x5 x6 x7 = mlpArray (val_main_v0 (F := Ideal) x0) x2 x3 x4 x5 x6 x7 := by
  funext i
  obtain ⟨r, q, rfl⟩ : ∃ (r : Fin 4096) (q : Fin 324), i = ix2 r q := ⟨i 0, i 1, eq_ix2 i⟩
  rw [val_main_v14_apply, val_main_v11_apply, val_main_v13_apply, val_main_v12_apply]
  simp only [lidx3, ridx3, bidx3, hidden2_ref]
  rfl

end Cert.RefIsSpec

end
-- ==== Proof.LibMatmulPlain.lean ====
/-
  Two general facts about matrix products at the ideal values.

  * A kernel's matrix product with the plain dimension numbers (rows by columns, one contracted axis, no batch axis)
    accumulated into the zero splat, read at entry (a, b), is the inner product of row `a` of the left factor with
    column `b` of the right one: `∑ c, A a c · B c b`.
  * On the extended reals a factor distributes over a sum of two NONNEGATIVE terms whatever the factor is (the two
    infinities of opposite sign cannot meet), so a weighted sum of such sums splits into the two weighted sums.
-/
import Idealize.ShloMosaic.Lib.StackMember
import Idealize.ShloMosaic.Lib.KernelVsHost
import Idealize.ShloMosaic.Lib.ValueIdx
import Idealize.ShloMosaic.PureOps.Ideal.Laws

noncomputable section

open scoped BigOperators

namespace Cert.LibMatmulPlain

open Idealize.ShloMosaic Idealize.ShloMosaic.ValueIdx

/-- A product with the plain dimension numbers accumulated into the zero splat, read at an entry: the inner product
    of a row of the left factor with a column of the right one. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [matmul_zero_eq_dotGeneral]
  exact StackMember.dotGeneral_plain_apply prec A B a b

/-- A factor distributes over a sum of two nonnegative extended reals, so a weighted sum of such sums splits. -/
theorem sum_mul_add_of_nonneg {ι : Type} [Fintype ι] (w A B : ι → EReal) (hA : ∀ k, 0 ≤ A k) (hB : ∀ k, 0 ≤ B k) :
    ∑ k, w k * (A k + B k) = ∑ k, w k * A k + ∑ k, w k * B k := by
  rw [← Finset.sum_add_distrib]
  exact Finset.sum_congr rfl fun k _ => EReal.left_distrib_of_nonneg (hA k) (hB k)

end Cert.LibMatmulPlain

end
-- ==== Proof.KernelPayload.lean ====
/-
  What the kernel body computes from its blocks.

  The body loads a block of 64 feature rows and the whole of the three weight matrices and bias rows, and stores
  `((relu (relu (x · w1 + b1) · w2 + b2)) · w3 + b3)`: three matrix products, each accumulated into a zero splat, each
  followed by a bias row broadcast over the 64 rows, the first two rectified by the maximum with a zero splat. The
  roundings to the narrow format on the way into each product are the identity at the ideal values. Read at entry
  `(p, q)` of the stored block this is the perceptron of row `p` of the feature block, column `q` of 384.
-/
import proofs.«170674_j57166014709942_2_alg».proof.Proof.Gen.KernelIdeal.Skeleton
import proofs.«170674_j57166014709942_2_alg».proof.Proof.MlpSpec
import proofs.«170674_j57166014709942_2_alg».proof.Proof.LibMatmulPlain
import Idealize.ShloMosaic.Lib.ValueLayout
import Idealize.ShloMosaic.Lib.Pipeline.Value

noncomputable section

open scoped BigOperators

namespace Cert.KernelPayload

open Idealize.ShloMosaic Idealize.ShloMosaic.ValueIdx Cert.KernelIdeal Cert.KernelIdeal.Gen Cert.MlpSpec

/-- A matrix product into the zero splat plus a bias row broadcast over the rows, read at entry `(p, j)`: one entry of
    a dense layer, over row `p` of the left factor and column `j` of the right one. -/
theorem dense_apply {m k n : Nat} {φ₁ φ₂ : FTy} (A : FVec Ideal ⟨2, ![m, k]⟩ φ₁) (B : FVec Ideal ⟨2, ![k, n]⟩ φ₂)
    (b : FVec Ideal ⟨2, ![1, n]⟩ .f32) (hb : (⟨2, ![1, n]⟩ : Shape).Broadcasts ⟨2, ![m, n]⟩) (p : Fin m) (j : Fin n) :
    addf (matmul (DotDims.plain m k n) none A B (constant (F := Ideal) ⟨2, ![m, n]⟩ .f32 0x00000000#32))
        (broadcastTo ⟨2, ![m, n]⟩ b hb) (ix2 p j)
      = dense (fun c => A (ix2 p c)) (fun c => B (ix2 c j)) (b (ix2 (0 : Fin 1) j)) := by
  rw [addf_apply, Cert.LibMatmulPlain.matmul_plain_zero_apply, broadcastTo_1b_ab_apply]
  rfl

/-- The same layer rectified by the maximum with the zero splat and then rounded to a narrower format (the identity
    at the ideal values), read at entry `(p, j)`. -/
theorem relu_dense_apply {m k n : Nat} {φ₁ φ₂ ψ : FTy} (A : FVec Ideal ⟨2, ![m, k]⟩ φ₁) (B : FVec Ideal ⟨2, ![k, n]⟩ φ₂)
    (b : FVec Ideal ⟨2, ![1, n]⟩ .f32) (hb : (⟨2, ![1, n]⟩ : Shape).Broadcasts ⟨2, ![m, n]⟩) (hψ : ψ.bits < FTy.f32.bits)
    (p : Fin m) (j : Fin n) :
    (truncf ψ (maximumf (addf (matmul (DotDims.plain m k n) none A B (constant (F := Ideal) ⟨2, ![m, n]⟩ .f32 0x00000000#32))
          (broadcastTo ⟨2, ![m, n]⟩ b hb)) (broadcast ⟨2, ![m, n]⟩ (Scalar.ofBits (F := Ideal) .f32 0x00000000#32))) hψ
        : FVec Ideal ⟨2, ![m, n]⟩ ψ) (ix2 p j)
      = relu (dense (fun c => A (ix2 p c)) (fun c => B (ix2 c j)) (b (ix2 (0 : Fin 1) j))) := by
  rw [truncf_apply, maximumf_apply, dense_apply, broadcast_apply]
  rfl

/-- THE STORED BLOCK at `(p, q)`: the perceptron of row `p` of the feature block, with the loaded weights and bias rows. -/
theorem pay_apply (x0 : Vec Ideal S64x12544 .f32) (x1 : Vec Ideal S12544x1024 .bf16) (x2 : Vec Ideal S1x1024 .f32)
    (x3 : Vec Ideal S1024x1024 .bf16) (x4 : Vec Ideal S1x1024 .f32) (x5 : Vec Ideal S1024x384 .bf16) (x6 : Vec Ideal S1x384 .f32)
    (p : Fin 64) (q : Fin 384) :
    k0_pay1 (F := Ideal) x0 x1 x2 x3 x4 x5 x6 (ix2 p q)
      = out (N := 384) (fun k => x0 (ix2 p k)) (fun k j => x1 (ix2 k j)) (fun j => x2 (ix2 (0 : Fin 1) j))
          (fun k j => x3 (ix2 k j)) (fun j => x4 (ix2 (0 : Fin 1) j)) (fun k j => x5 (ix2 k j)) (fun j => x6 (ix2 (0 : Fin 1) j)) q := by
  unfold k0_pay1
  simp only [shapeCast_self]
  refine (dense_apply _ _ _ _ p q).trans ?_
  unfold out
  refine congrArg (fun h => dense h (fun c => x5 (ix2 c q)) (x6 (ix2 (0 : Fin 1) q))) (funext fun c => ?_)
  refine (relu_dense_apply _ _ _ _ _ p c).trans ?_
  unfold hidden2
  refine congrArg (fun h => relu (dense h (fun c' => x3 (ix2 c' c)) (x4 (ix2 (0 : Fin 1) c)))) (funext fun c' => ?_)
  exact relu_dense_apply _ _ _ _ _ p c'

end Cert.KernelPayload

end
-- ==== Proof.LibScatterSet.lean ====
/-
  A host scatter whose body returns the update (jnp's `x.at[...].set(v)`), read at an entry.

  The scatter is a left fold over the update entries in row-major order: each entry that lands inside the operand
  overwrites the element it lands on, and an entry that lands outside is dropped. Reading the result at one entry
  `i` therefore only asks which update entries land on `i`:

  * if none does, the result at `i` is the operand at `i`;
  * if exactly one update entry `j` does, the result at `i` is the update at `j`, whatever the other entries wrote
    elsewhere (the earlier ones are overwritten or irrelevant, the later ones miss `i`).

  The second half of the file applies this to the two layouts a zero-padding `zeros(...).at[:, :M].set(v)` and
  `zeros(...).at[:M].set(v)` lower to: ONE scatter index, equal to zero, whose window is the whole update. The update
  entry `(k, q)` lands on the operand entry `(k, q)`, so inside the window the result is the update and outside it the
  operand.
-/
import Idealize.ShloMosaic.PureOps.ShapeOps
import Idealize.ShloMosaic.Lib.ValueIdx

noncomputable section

namespace Cert.LibScatterSet

open Idealize.ShloMosaic Idealize.ShloMosaic.ValueIdx

variable {α : Type} {s si u : Shape} {w : Nat}

/-- One step of the fold: update entry number `n` overwrites the element it lands on, or is dropped. -/
def step (d : ScatterDims s si u) (idx : IVec si w) (upd : u.Idx → α) (r : s.Idx → α) (n : Fin u.numel) : s.Idx → α :=
  match d.resultIdx? (u.rowMajor.symm n) idx with
  | some i => fun i' => if i' = i then upd (u.rowMajor.symm n) else r i'
  | none => r

/-- The scatter with a body that returns the update is the fold of `step`. -/
theorem scatter_set_eq_foldl (d : ScatterDims s si u) (x : s.Idx → α) (idx : IVec si w) (upd : u.Idx → α) :
    Host.scatter d (fun _ b => b) x idx upd = (List.finRange u.numel).foldl (step d idx upd) x := rfl

theorem step_of_some (d : ScatterDims s si u) (idx : IVec si w) (upd : u.Idx → α) (r : s.Idx → α) (n : Fin u.numel)
    (i0 : s.Idx) (h : d.resultIdx? (u.rowMajor.symm n) idx = some i0) (i' : s.Idx) :
    step d idx upd r n i' = if i' = i0 then upd (u.rowMajor.symm n) else r i' := by
  unfold step; rw [h]

theorem step_of_none (d : ScatterDims s si u) (idx : IVec si w) (upd : u.Idx → α) (r : s.Idx → α) (n : Fin u.numel)
    (h : d.resultIdx? (u.rowMajor.symm n) idx = none) : step d idx upd r n = r := by
  unfold step; rw [h]

/-- A step whose entry does not land on `i` leaves the element at `i` as it was. -/
theorem step_of_miss (d : ScatterDims s si u) (idx : IVec si w) (upd : u.Idx → α) (r : s.Idx → α) (n : Fin u.numel)
    (i : s.Idx) (h : d.resultIdx? (u.rowMajor.symm n) idx ≠ some i) : step d idx upd r n i = r i := by
  cases hres : d.resultIdx? (u.rowMajor.symm n) idx with
  | none => rw [step_of_none d idx upd r n hres]
  | some i0 =>
    rw [step_of_some d idx upd r n i0 hres, if_neg]
    intro e; exact h (by rw [hres, e])

/-- Steps none of whose entries lands on `i` leave the element at `i` as it was. -/
theorem foldl_step_of_miss (d : ScatterDims s si u) (idx : IVec si w) (upd : u.Idx → α) (i : s.Idx) :
    ∀ (L : List (Fin u.numel)) (r : s.Idx → α), (∀ n ∈ L, d.resultIdx? (u.rowMajor.symm n) idx ≠ some i) →
      (L.foldl (step d idx upd) r) i = r i
  | [], _, _ => rfl
  | n :: L, r, h => by
    rw [List.foldl_cons, foldl_step_of_miss d idx upd i L _ (fun n' hn' => h n' (List.mem_cons_of_mem _ hn'))]
    exact step_of_miss d idx upd r n i (h n List.mem_cons_self)

/-- AN ENTRY NO UPDATE LANDS ON keeps the operand's element. -/
theorem scatter_set_apply_of_miss (d : ScatterDims s si u) (x : s.Idx → α) (idx : IVec si w) (upd : u.Idx → α) (i : s.Idx)
    (h : ∀ j : u.Idx, d.resultIdx? j idx ≠ some i) : Host.scatter d (fun _ b => b) x idx upd i = x i := by
  rw [scatter_set_eq_foldl]
  exact foldl_step_of_miss d idx upd i _ x (fun n _ => h _)

/-- AN ENTRY EXACTLY ONE UPDATE ENTRY `j` LANDS ON holds the update at `j`. -/
theorem scatter_set_apply_of_unique (d : ScatterDims s si u) (x : s.Idx → α) (idx : IVec si w) (upd : u.Idx → α)
    (j : u.Idx) (i : s.Idx) (hj : d.resultIdx? j idx = some i) (huniq : ∀ j' : u.Idx, d.resultIdx? j' idx = some i → j' = j) :
    Host.scatter d (fun _ b => b) x idx upd i = upd j := by
  rw [scatter_set_eq_foldl]
  have hnd : (List.finRange u.numel).Nodup := List.nodup_finRange _
  obtain ⟨L1, L2, hL⟩ := List.append_of_mem (List.mem_finRange (u.rowMajor j))
  rw [hL] at hnd ⊢
  rw [List.foldl_append, List.foldl_cons]
  have h2 : (u.rowMajor j :: L2).Nodup := hnd.of_append_right
  have hnot : u.rowMajor j ∉ L2 := (List.nodup_cons.mp h2).1
  rw [foldl_step_of_miss d idx upd i L2 _ (fun n hn hres => by
    have e : u.rowMajor.symm n = j := huniq _ hres
    have e' : n = u.rowMajor j := by rw [← e, Equiv.apply_symm_apply]
    exact hnot (e' ▸ hn))]
  have hj' : d.resultIdx? (u.rowMajor.symm (u.rowMajor j)) idx = some i := by rw [Equiv.symm_apply_apply]; exact hj
  rw [step_of_some d idx upd _ _ i hj', if_pos rfl, Equiv.symm_apply_apply]

/-! ## A window written at the start: columns `[0, M)` of a `[K, N]` array, entries `[0, M)` of an `[N]` array -/

section Cols

variable {K N M : Nat}

/-- The dimension numbers of `zeros([K, N]).at[:, :M].set(v)`: both update axes are window axes, nothing is inserted,
    the one scatter index names the column axis. -/
abbrev colsDims (K N M : Nat) (wf : ScatterDims.WF ⟨2, ![K, N]⟩ ⟨1, ![1]⟩ ⟨2, ![K, M]⟩ [0, 1] [] [1] 0) :
    ScatterDims ⟨2, ![K, N]⟩ ⟨1, ![1]⟩ ⟨2, ![K, M]⟩ := ⟨[0, 1], [], [1], 0, wf⟩

variable (wf : ScatterDims.WF ⟨2, ![K, N]⟩ ⟨1, ![1]⟩ ⟨2, ![K, M]⟩ [0, 1] [] [1] 0)
  (idx : IVec ⟨1, ![1]⟩ w) (hidx : ∀ e, (idx e).toInt = 0) (hMN : M ≤ N)

include hidx in
/-- The window starts at zero on both axes: the row axis is not named, the column axis reads the zero index. -/
theorem cols_start (j : (⟨2, ![K, M]⟩ : Shape).Idx) (a : Fin 2) : (colsDims K N M wf).start j idx a = 0 := by
  unfold ScatterDims.start
  split
  · exact hidx _
  · rfl

/-- The window coordinate on each axis is the update entry's own coordinate. -/
theorem cols_window (j : (⟨2, ![K, M]⟩ : Shape).Idx) (a : Fin 2) : (colsDims K N M wf).window j a = (j a).val := by
  match a with
  | ⟨0, h0⟩ =>
    unfold ScatterDims.window
    have hm : (⟨0, h0⟩ : Fin 2) ∈ (colsDims K N M wf).sKept :=
      (show (0 : Fin 2) ∈ (List.finRange 2).filter (fun a => a ∉ ([] : List (Fin 2))) by decide)
    rw [dif_pos hm]; rfl
  | ⟨1, h1⟩ =>
    unfold ScatterDims.window
    have hm : (⟨1, h1⟩ : Fin 2) ∈ (colsDims K N M wf).sKept :=
      (show (1 : Fin 2) ∈ (List.finRange 2).filter (fun a => a ∉ ([] : List (Fin 2))) by decide)
    rw [dif_pos hm]; rfl

/-- Where update entry `j` lands: the operand entry with the same two coordinates. -/
def colsLand (hMN : M ≤ N) (j : (⟨2, ![K, M]⟩ : Shape).Idx) : (⟨2, ![K, N]⟩ : Shape).Idx :=
  ix2 (n0 := K) (n1 := N) ⟨(j 0).val, (j 0).isLt⟩ ⟨(j 1).val, Nat.lt_of_lt_of_le (j 1).isLt hMN⟩

include hidx in
theorem cols_resultIdx (j : (⟨2, ![K, M]⟩ : Shape).Idx) : (colsDims K N M wf).resultIdx? j idx = some (colsLand hMN j) := by
  unfold ScatterDims.resultIdx?
  have h : ∀ a : Fin 2, 0 ≤ (colsDims K N M wf).start j idx a + ((colsDims K N M wf).window j a : Int)
      ∧ (colsDims K N M wf).start j idx a + ((colsDims K N M wf).window j a : Int) < (((⟨2, ![K, N]⟩ : Shape).size a : Nat) : Int) := by
    intro a
    rw [cols_start wf idx hidx j a, cols_window wf j a]
    match a with
    | ⟨0, _⟩ =>
      have hlt : (j 0).val < K := (j 0).isLt
      exact ⟨by omega, by show (0 : Int) + ((j 0).val : Int) < (K : Int); omega⟩
    | ⟨1, _⟩ =>
      have hlt : (j 1).val < M := (j 1).isLt
      exact ⟨by omega, by show (0 : Int) + ((j 1).val : Int) < (N : Int); omega⟩
  rw [dif_pos h]
  refine congrArg some (funext fun a => Fin.ext ?_)
  show ((colsDims K N M wf).start j idx a + ((colsDims K N M wf).window j a : Int)).toNat = (colsLand hMN j a).val
  rw [cols_start wf idx hidx j a, cols_window wf j a]
  match a with
  | ⟨0, _⟩ => show ((0 : Int) + ((j 0).val : Int)).toNat = (j 0).val; omega
  | ⟨1, _⟩ => show ((0 : Int) + ((j 1).val : Int)).toNat = (j 1).val; omega

theorem colsLand_injective (j j' : (⟨2, ![K, M]⟩ : Shape).Idx) (h : colsLand (N := N) hMN j' = colsLand hMN j) : j' = j := by
  funext a
  match a with
  | ⟨0, _⟩ =>
    have e : (colsLand (N := N) hMN j' 0).val = (colsLand hMN j 0).val := congrArg Fin.val (congrFun h 0)
    exact Fin.ext e
  | ⟨1, _⟩ =>
    have e : (colsLand (N := N) hMN j' 1).val = (colsLand hMN j 1).val := congrArg Fin.val (congrFun h 1)
    exact Fin.ext e

include hidx in
/-- INSIDE THE WINDOW the padded array holds the update: entry `(k, q)` with `q < M` is the update's `(k, q)`. -/
theorem cols_apply_inside (x : (⟨2, ![K, N]⟩ : Shape).Idx → α) (upd : (⟨2, ![K, M]⟩ : Shape).Idx → α) (k : Fin K) (q : Fin M) :
    Host.scatter (colsDims K N M wf) (fun _ b => b) x idx upd (ix2 k ⟨q.val, Nat.lt_of_lt_of_le q.isLt hMN⟩) = upd (ix2 k q) :=
  scatter_set_apply_of_unique _ x idx upd (ix2 k q) _ (cols_resultIdx wf idx hidx hMN (ix2 k q))
    (fun j' hj' => colsLand_injective hMN _ _ (Option.some.inj ((cols_resultIdx wf idx hidx hMN j').symm.trans hj')))

include hidx hMN in
/-- OUTSIDE THE WINDOW it holds the operand: entry `(k, q)` with `M ≤ q` is the operand's. -/
theorem cols_apply_outside (x : (⟨2, ![K, N]⟩ : Shape).Idx → α) (upd : (⟨2, ![K, M]⟩ : Shape).Idx → α) (k : Fin K) (q : Fin N)
    (hq : M ≤ q.val) : Host.scatter (colsDims K N M wf) (fun _ b => b) x idx upd (ix2 k q) = x (ix2 k q) :=
  scatter_set_apply_of_miss _ x idx upd _ (fun j hj => by
    have e := Option.some.inj ((cols_resultIdx wf idx hidx hMN j).symm.trans hj)
    have e1 : (j 1).val = q.val := congrArg Fin.val (congrFun e 1)
    have hlt : (j 1).val < M := (j 1).isLt
    omega)

end Cols

section Entries

variable {N M : Nat}

/-- The dimension numbers of `zeros([N]).at[:M].set(v)`: the update's one axis is the window axis, nothing is inserted,
    the one scatter index names the operand's one axis. -/
abbrev entriesDims (N M : Nat) (wf : ScatterDims.WF ⟨1, ![N]⟩ ⟨1, ![1]⟩ ⟨1, ![M]⟩ [0] [] [0] 0) :
    ScatterDims ⟨1, ![N]⟩ ⟨1, ![1]⟩ ⟨1, ![M]⟩ := ⟨[0], [], [0], 0, wf⟩

variable (wf : ScatterDims.WF ⟨1, ![N]⟩ ⟨1, ![1]⟩ ⟨1, ![M]⟩ [0] [] [0] 0)
  (idx : IVec ⟨1, ![1]⟩ w) (hidx : ∀ e, (idx e).toInt = 0) (hMN : M ≤ N)

include hidx in
theorem entries_start (j : (⟨1, ![M]⟩ : Shape).Idx) (a : Fin 1) : (entriesDims N M wf).start j idx a = 0 := by
  unfold ScatterDims.start
  split
  · exact hidx _
  · rfl

theorem entries_window (j : (⟨1, ![M]⟩ : Shape).Idx) (a : Fin 1) : (entriesDims N M wf).window j a = (j a).val := by
  match a with
  | ⟨0, h0⟩ =>
    unfold ScatterDims.window
    have hm : (⟨0, h0⟩ : Fin 1) ∈ (entriesDims N M wf).sKept :=
      (show (0 : Fin 1) ∈ (List.finRange 1).filter (fun a => a ∉ ([] : List (Fin 1))) by decide)
    rw [dif_pos hm]; rfl

/-- Where update entry `j` lands: the operand entry with the same coordinate. -/
def entriesLand (hMN : M ≤ N) (j : (⟨1, ![M]⟩ : Shape).Idx) : (⟨1, ![N]⟩ : Shape).Idx :=
  ix1 (n := N) ⟨(j 0).val, Nat.lt_of_lt_of_le (j 0).isLt hMN⟩

include hidx in
theorem entries_resultIdx (j : (⟨1, ![M]⟩ : Shape).Idx) : (entriesDims N M wf).resultIdx? j idx = some (entriesLand hMN j) := by
  unfold ScatterDims.resultIdx?
  have h : ∀ a : Fin 1, 0 ≤ (entriesDims N M wf).start j idx a + ((entriesDims N M wf).window j a : Int)
      ∧ (entriesDims N M wf).start j idx a + ((entriesDims N M wf).window j a : Int) < (((⟨1, ![N]⟩ : Shape).size a : Nat) : Int) := by
    intro a
    rw [entries_start wf idx hidx j a, entries_window wf j a]
    match a with
    | ⟨0, _⟩ =>
      have hlt : (j 0).val < M := (j 0).isLt
      exact ⟨by omega, by show (0 : Int) + ((j 0).val : Int) < (N : Int); omega⟩
  rw [dif_pos h]
  refine congrArg some (funext fun a => Fin.ext ?_)
  show ((entriesDims N M wf).start j idx a + ((entriesDims N M wf).window j a : Int)).toNat = (entriesLand hMN j a).val
  rw [entries_start wf idx hidx j a, entries_window wf j a]
  match a with
  | ⟨0, _⟩ => show ((0 : Int) + ((j 0).val : Int)).toNat = (j 0).val; omega

theorem entriesLand_injective (j j' : (⟨1, ![M]⟩ : Shape).Idx) (h : entriesLand (N := N) hMN j' = entriesLand hMN j) : j' = j := by
  funext a
  match a with
  | ⟨0, _⟩ =>
    have e : (entriesLand (N := N) hMN j' 0).val = (entriesLand hMN j 0).val := congrArg Fin.val (congrFun h 0)
    exact Fin.ext e

include hidx in
/-- INSIDE THE WINDOW the padded vector holds the update: entry `q < M` is the update's entry `q`. -/
theorem entries_apply_inside (x : (⟨1, ![N]⟩ : Shape).Idx → α) (upd : (⟨1, ![M]⟩ : Shape).Idx → α) (q : Fin M) :
    Host.scatter (entriesDims N M wf) (fun _ b => b) x idx upd (ix1 ⟨q.val, Nat.lt_of_lt_of_le q.isLt hMN⟩) = upd (ix1 q) :=
  scatter_set_apply_of_unique _ x idx upd (ix1 q) _ (entries_resultIdx wf idx hidx hMN (ix1 q))
    (fun j' hj' => entriesLand_injective hMN _ _ (Option.some.inj ((entries_resultIdx wf idx hidx hMN j').symm.trans hj')))

include hidx hMN in
/-- OUTSIDE THE WINDOW it holds the operand: entry `q` with `M ≤ q` is the operand's. -/
theorem entries_apply_outside (x : (⟨1, ![N]⟩ : Shape).Idx → α) (upd : (⟨1, ![M]⟩ : Shape).Idx → α) (q : Fin N)
    (hq : M ≤ q.val) : Host.scatter (entriesDims N M wf) (fun _ b => b) x idx upd (ix1 q) = x (ix1 q) :=
  scatter_set_apply_of_miss _ x idx upd _ (fun j hj => by
    have e := Option.some.inj ((entries_resultIdx wf idx hidx hMN j).symm.trans hj)
    have e1 : (j 0).val = q.val := congrArg Fin.val (congrFun e 0)
    have hlt : (j 0).val < M := (j 0).isLt
    omega)

end Entries

end Cert.LibScatterSet

end
-- ==== Proof.KernelHostPrefix.lean ====
/-
  What the kernel's region finds in its seven input arrays.

  Before the region the program flattens the features to 4096 rows of 12544, rounds the three weight matrices to the
  narrow format (the identity at the ideal values), reshapes each bias vector to a one-row matrix, and widens the last
  layer from 324 to 384 columns by writing the weights and the bias into zero arrays at offset zero. So, entry by entry:
  the first two weight matrices and biases are the arguments themselves, and the widened last layer agrees with the
  argument on the first 324 columns (the rest is zero, and is never read by a result column below 324).
-/
import proofs.«170674_j57166014709942_2_alg».proof.Proof.Gen.KernelIdeal.Frame
import proofs.«170674_j57166014709942_2_alg».proof.Proof.LibScatterSet
import Idealize.ShloMosaic.Lib.ValueLayout
import Idealize.ShloMosaic.Lib.StableHlo.Run

noncomputable section

namespace Cert.KernelHostPrefix

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-! ## The arrays as terms of the arguments -/

/-- The flattened features: the first argument reshaped to 4096 rows of 12544. -/
theorem V_v0 (c : Dev nD) :
    (V m c main_v0 : S4096x12544.Idx → EReal)
      = shapeCast S4096x12544 (m ((c : Thread nD τ).loc main_arg0)) shapeCasts_S4096x7x7x256_S4096x12544 := by
  show StableHlo.after hostOps0 (fun b => m (c, b)) (Proc.devRef .tc main_v0) = _
  after_results <;> rfl

/-- The first weight matrix, rounded to the narrow format. -/
theorem V_v1 (c : Dev nD) :
    (V m c main_v1 : S12544x1024.Idx → EReal)
      = truncf (F := Ideal) .bf16 (m ((c : Thread nD τ).loc main_arg2) : FVec Ideal S12544x1024 .f32) bitsLt_bf16_f32 := by
  show StableHlo.after hostOps0 (fun b => m (c, b)) (Proc.devRef .tc main_v1) = _
  after_results <;> rfl

/-- The second weight matrix, rounded to the narrow format. -/
theorem V_v2 (c : Dev nD) :
    (V m c main_v2 : S1024x1024.Idx → EReal)
      = truncf (F := Ideal) .bf16 (m ((c : Thread nD τ).loc main_arg4) : FVec Ideal S1024x1024 .f32) bitsLt_bf16_f32 := by
  show StableHlo.after hostOps0 (fun b => m (c, b)) (Proc.devRef .tc main_v2) = _
  after_results <;> rfl

/-- The first bias as a one-row matrix. -/
theorem V_v10 (c : Dev nD) :
    (V m c main_v10 : S1x1024.Idx → EReal)
      = shapeCast S1x1024 (m ((c : Thread nD τ).loc main_arg3)) shapeCasts_S1024_S1x1024 := by
  show StableHlo.after hostOps0 (fun b => m (c, b)) (Proc.devRef .tc main_v10) = _
  after_results <;> rfl

/-- The second bias as a one-row matrix. -/
theorem V_v11 (c : Dev nD) :
    (V m c main_v11 : S1x1024.Idx → EReal)
      = shapeCast S1x1024 (m ((c : Thread nD τ).loc main_arg5)) shapeCasts_S1024_S1x1024 := by
  show StableHlo.after hostOps0 (fun b => m (c, b)) (Proc.devRef .tc main_v11) = _
  after_results <;> rfl

/-- The last weight matrix written into 384 zero columns at offset zero, then rounded to the narrow format. -/
theorem V_v9 (c : Dev nD) :
    (V m c main_v9 : S1024x384.Idx → EReal)
      = truncf (F := Ideal) .bf16
          (Host.scatter scatter_S1024x384_S1_S1024x324_01_n_1_0 (fun _ b => b)
            (broadcastInDim S1024x384 ![] bcast_S_S1024x384 (constant (F := Ideal) S_ .f32 0x00000000#32))
            (broadcastInDim S1 ![] bcast_S_S1 (constantI S_ 32 0#32))
            (m ((c : Thread nD τ).loc main_arg6)) : FVec Ideal S1024x384 .f32) bitsLt_bf16_f32 := by
  show StableHlo.after hostOps0 (fun b => m (c, b)) (Proc.devRef .tc main_v9) = _
  after_results <;> rfl

/-- The last bias written into 384 zeros at offset zero, as a one-row matrix. -/
theorem V_v12 (c : Dev nD) :
    (V m c main_v12 : S1x384.Idx → EReal)
      = shapeCast S1x384
          (Host.scatter scatter_S384_S1_S324_0_n_0_0 (fun _ b => b)
            (broadcastInDim S384 ![] bcast_S_S384 (constant (F := Ideal) S_ .f32 0x00000000#32))
            (broadcastInDim S1 ![] bcast_S_S1 (constantI S_ 32 0#32))
            (m ((c : Thread nD τ).loc main_arg7))) shapeCasts_S384_S1x384 := by
  show StableHlo.after hostOps0 (fun b => m (c, b)) (Proc.devRef .tc main_v12) = _
  after_results <;> rfl

/-! ## Entry by entry -/

/-- The one scatter index is zero. -/
theorem idx_zero (e : S1.Idx) : ((broadcastInDim S1 ![] bcast_S_S1 (constantI S_ 32 0#32) : IVec S1 32) e).toInt = 0 := rfl

theorem v1_apply (c : Dev nD) (k : Fin 12544) (j : Fin 1024) :
    (V m c main_v1 : S12544x1024.Idx → EReal) (ix2 k j) = (m ((c : Thread nD τ).loc main_arg2) : S12544x1024.Idx → EReal) (ix2 k j) := by
  rw [V_v1]; rfl

theorem v2_apply (c : Dev nD) (k : Fin 1024) (j : Fin 1024) :
    (V m c main_v2 : S1024x1024.Idx → EReal) (ix2 k j) = (m ((c : Thread nD τ).loc main_arg4) : S1024x1024.Idx → EReal) (ix2 k j) := by
  rw [V_v2]; rfl

theorem v10_apply (c : Dev nD) (j : Fin 1024) :
    (V m c main_v10 : S1x1024.Idx → EReal) (ix2 (0 : Fin 1) j) = (m ((c : Thread nD τ).loc main_arg3) : S1024.Idx → EReal) (ix1 j) := by
  rw [V_v10]; exact shapeCast_a_1a_apply _ _ 0 j

theorem v11_apply (c : Dev nD) (j : Fin 1024) :
    (V m c main_v11 : S1x1024.Idx → EReal) (ix2 (0 : Fin 1) j) = (m ((c : Thread nD τ).loc main_arg5) : S1024.Idx → EReal) (ix1 j) := by
  rw [V_v11]; exact shapeCast_a_1a_apply _ _ 0 j

/-- The printed dimension numbers of the two paddings are those of a window written at the start. -/
theorem dims9_eq : scatter_S1024x384_S1_S1024x324_01_n_1_0
    = Cert.LibScatterSet.colsDims 1024 384 324 scatter_S1024x384_S1_S1024x324_01_n_1_0.wf := rfl
theorem dims12_eq : scatter_S384_S1_S324_0_n_0_0
    = Cert.LibScatterSet.entriesDims 384 324 scatter_S384_S1_S324_0_n_0_0.wf := rfl

/-- On its first 324 columns the widened last weight matrix is the argument. -/
theorem v9_apply (c : Dev nD) (k : Fin 1024) (q : Fin 324) (h : q.val < 384) :
    (V m c main_v9 : S1024x384.Idx → EReal) (ix2 k ⟨q.val, h⟩)
      = (m ((c : Thread nD τ).loc main_arg6) : S1024x324.Idx → EReal) (ix2 k q) := by
  rw [V_v9, truncf_apply, dims9_eq]
  exact Cert.LibScatterSet.cols_apply_inside (α := EReal) (w := 32) (K := 1024) (N := 384) (M := 324)
    scatter_S1024x384_S1_S1024x324_01_n_1_0.wf (broadcastInDim S1 ![] bcast_S_S1 (constantI S_ 32 0#32)) idx_zero (by omega)
    (broadcastInDim S1024x384 ![] bcast_S_S1024x384 (constant (F := Ideal) S_ .f32 0x00000000#32))
    (m ((c : Thread nD τ).loc main_arg6)) k q

/-- On its first 324 entries the widened last bias is the argument. -/
theorem v12_apply (c : Dev nD) (q : Fin 324) (h : q.val < 384) :
    (V m c main_v12 : S1x384.Idx → EReal) (ix2 (0 : Fin 1) ⟨q.val, h⟩)
      = (m ((c : Thread nD τ).loc main_arg7) : S324.Idx → EReal) (ix1 q) := by
  rw [V_v12, dims12_eq]
  refine (shapeCast_a_1a_apply _ _ 0 _).trans ?_
  exact Cert.LibScatterSet.entries_apply_inside (α := EReal) (w := 32) (N := 384) (M := 324)
    scatter_S384_S1_S324_0_n_0_0.wf (broadcastInDim S1 ![] bcast_S_S1 (constantI S_ 32 0#32)) idx_zero (by omega)
    (broadcastInDim S384 ![] bcast_S_S384 (constant (F := Ideal) S_ .f32 0x00000000#32))
    (m ((c : Thread nD τ).loc main_arg7)) q

end Cert.KernelHostPrefix

end
-- ==== Proof.KernelValue.lean ====
/-
  The array the kernel's region leaves.

  The region runs 64 grid points. Point `t` is handed rows `64·t … 64·t + 63` of the flattened features and the whole of
  every other operand, and writes back rows `64·t … 64·t + 63` of a 4096 × 384 array: what the body stored, which is
  the perceptron of each of its 64 feature rows (KernelPayload). The 64 row bands tile the array, so after the region
  every entry `(r, q)` holds the perceptron of feature row `r` at column `q` of the widened last layer.
-/
import proofs.«170674_j57166014709942_2_alg».proof.Proof.Gen.KernelIdeal.Frame
import proofs.«170674_j57166014709942_2_alg».proof.Proof.KernelPayload
import proofs.«170674_j57166014709942_2_alg».proof.Proof.KernelHostPrefix
import Idealize.ShloMosaic.Lib.Pipeline.Value
import Idealize.ShloMosaic.Lib.ValueLayout
import Idealize.ShloMosaic.Lib.StableHlo.Run

set_option maxRecDepth 16384

noncomputable section

namespace Cert.KernelValue

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.MlpSpec Cert.KernelPayload Cert.KernelHostPrefix

variable (m : (ℓ : Loc nD τ sig) → Buf (Elt Ideal) ℓ) (ρ : Dev nD → PrngReg)

/-! ## The index maps over the grid -/

theorem hz : (![0, 0] : Fin 2 → Nat) = fun _ => 0 := funext fun a => by fin_cases a <;> rfl

/-- The feature window and the output window move one block of 64 rows per point; -/
theorem idx0 : ∀ t : Fin cfg0.N, win0_0.index t (0 : Fin 2) = t.val ∧ win0_0.index t (1 : Fin 2) = 0 :=
  (by decide +kernel : ∀ t : Fin grid0.N, _)
theorem idx7 : ∀ t : Fin cfg0.N, win0_7.index t (0 : Fin 2) = t.val ∧ win0_7.index t (1 : Fin 2) = 0 :=
  (by decide +kernel : ∀ t : Fin grid0.N, _)
/-- every other window stays on its one block, the whole array. -/
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)

/-- Row `p` of point `t`'s band is row `64·t + p` of the array. -/
def rowOf (t : Fin cfg0.N) (p : Fin 64) : Fin 4096 :=
  ⟨t.val * 64 + p.val, by have h : t.val < 64 := lt_of_lt_of_eq t.isLt N_0; have := p.isLt; omega⟩

/-! ## Each window's block at a point, read off its array -/

/-- The feature block at point `t` is the band of rows `64·t …` of the flattened features. -/
theorem blk0 (c : Dev nD) (t : Fin cfg0.N) (p : Fin 64) (k : Fin 12544) :
    iblk m c 0 t (ix2 p k) = V m c main_v0 (ix2 (rowOf t p) k) := by
  show V m c main_v0 (((cfg0.win 0).blk t).view.emb (ix2 p k)) = V m c main_v0 (ix2 (rowOf t p) k)
  refine congrArg (V m c main_v0) (funext fun a => Fin.ext ?_)
  obtain ⟨e0, e1⟩ := idx0 t
  match a with
  | ⟨0, _⟩ => show win0_0.index t (0 : Fin 2) * 64 + 1 * p.val = t.val * 64 + p.val; rw [e0]; omega
  | ⟨1, _⟩ => show win0_0.index t (1 : Fin 2) * 12544 + 1 * k.val = k.val; rw [e1]; omega

/-- Window 1's block is its whole array. -/
theorem blk1 (c : Dev nD) (t : Fin cfg0.N) (k : Fin 12544) (j : Fin 1024) :
    iblk m c 1 t (ix2 k j) = V m c main_v1 (ix2 k j) := by
  show V m c main_v1 (((cfg0.win 1).blk t).view.emb (ix2 k j)) = V m c main_v1 (ix2 k j)
  refine congrArg (V m c main_v1) (funext fun a => Fin.ext ?_)
  obtain ⟨e0, e1⟩ := idx1 t
  match a with
  | ⟨0, _⟩ => show win0_1.index t (0 : Fin 2) * 12544 + 1 * k.val = k.val; rw [e0]; omega
  | ⟨1, _⟩ => show win0_1.index t (1 : Fin 2) * 1024 + 1 * j.val = j.val; rw [e1]; omega

/-- Window 2's block is its whole array. -/
theorem blk2 (c : Dev nD) (t : Fin cfg0.N) (k : Fin 1) (j : Fin 1024) :
    iblk m c 2 t (ix2 k j) = V m c main_v10 (ix2 k j) := by
  show V m c main_v10 (((cfg0.win 2).blk t).view.emb (ix2 k j)) = V m c main_v10 (ix2 k j)
  refine congrArg (V m c main_v10) (funext fun a => Fin.ext ?_)
  obtain ⟨e0, e1⟩ := idx2 t
  match a with
  | ⟨0, _⟩ => show win0_2.index t (0 : Fin 2) * 1 + 1 * k.val = k.val; rw [e0]; omega
  | ⟨1, _⟩ => show win0_2.index t (1 : Fin 2) * 1024 + 1 * j.val = j.val; rw [e1]; omega

/-- Window 3's block is its whole array. -/
theorem blk3 (c : Dev nD) (t : Fin cfg0.N) (k : Fin 1024) (j : Fin 1024) :
    iblk m c 3 t (ix2 k j) = V m c main_v2 (ix2 k j) := by
  show V m c main_v2 (((cfg0.win 3).blk t).view.emb (ix2 k j)) = V m c main_v2 (ix2 k j)
  refine congrArg (V m c main_v2) (funext fun a => Fin.ext ?_)
  obtain ⟨e0, e1⟩ := idx3 t
  match a with
  | ⟨0, _⟩ => show win0_3.index t (0 : Fin 2) * 1024 + 1 * k.val = k.val; rw [e0]; omega
  | ⟨1, _⟩ => show win0_3.index t (1 : Fin 2) * 1024 + 1 * j.val = j.val; rw [e1]; omega

/-- Window 4's block is its whole array. -/
theorem blk4 (c : Dev nD) (t : Fin cfg0.N) (k : Fin 1) (j : Fin 1024) :
    iblk m c 4 t (ix2 k j) = V m c main_v11 (ix2 k j) := by
  show V m c main_v11 (((cfg0.win 4).blk t).view.emb (ix2 k j)) = V m c main_v11 (ix2 k j)
  refine congrArg (V m c main_v11) (funext fun a => Fin.ext ?_)
  obtain ⟨e0, e1⟩ := idx4 t
  match a with
  | ⟨0, _⟩ => show win0_4.index t (0 : Fin 2) * 1 + 1 * k.val = k.val; rw [e0]; omega
  | ⟨1, _⟩ => show win0_4.index t (1 : Fin 2) * 1024 + 1 * j.val = j.val; rw [e1]; omega

/-- Window 5's block is its whole array. -/
theorem blk5 (c : Dev nD) (t : Fin cfg0.N) (k : Fin 1024) (j : Fin 384) :
    iblk m c 5 t (ix2 k j) = V m c main_v9 (ix2 k j) := by
  show V m c main_v9 (((cfg0.win 5).blk t).view.emb (ix2 k j)) = V m c main_v9 (ix2 k j)
  refine congrArg (V m c main_v9) (funext fun a => Fin.ext ?_)
  obtain ⟨e0, e1⟩ := idx5 t
  match a with
  | ⟨0, _⟩ => show win0_5.index t (0 : Fin 2) * 1024 + 1 * k.val = k.val; rw [e0]; omega
  | ⟨1, _⟩ => show win0_5.index t (1 : Fin 2) * 384 + 1 * j.val = j.val; rw [e1]; omega

/-- Window 6's block is its whole array. -/
theorem blk6 (c : Dev nD) (t : Fin cfg0.N) (k : Fin 1) (j : Fin 384) :
    iblk m c 6 t (ix2 k j) = V m c main_v12 (ix2 k j) := by
  show V m c main_v12 (((cfg0.win 6).blk t).view.emb (ix2 k j)) = V m c main_v12 (ix2 k j)
  refine congrArg (V m c main_v12) (funext fun a => Fin.ext ?_)
  obtain ⟨e0, e1⟩ := idx6 t
  match a with
  | ⟨0, _⟩ => show win0_6.index t (0 : Fin 2) * 1 + 1 * k.val = k.val; rw [e0]; omega
  | ⟨1, _⟩ => show win0_6.index t (1 : Fin 2) * 384 + 1 * j.val = j.val; rw [e1]; omega

/-- Entry `(p, q)` of the output block at point `t` is entry `(64·t + p, q)` of the output array. -/
theorem emb7 (t : Fin cfg0.N) (p : Fin 64) (q : Fin 384) :
    ((cfg0.win 7).blk t).view.emb (ix2 p q) = ix2 (rowOf t p) q := by
  funext a; apply Fin.ext
  obtain ⟨e0, e1⟩ := idx7 t
  match a with
  | ⟨0, _⟩ => show win0_7.index t (0 : Fin 2) * 64 + 1 * p.val = t.val * 64 + p.val; rw [e0]; omega
  | ⟨1, _⟩ => show win0_7.index t (1 : Fin 2) * 384 + 1 * q.val = q.val; rw [e1]; omega

/-! ## The array after the region -/

/-- What the output array ends holding: the perceptron of each feature row, over the operands as the region finds
    them (the last layer 384 columns wide). -/
def padArr (c : Dev nD) : S4096x384.Idx → EReal :=
  mlpRowsArray (N := 384) (V m c main_v0) (V m c main_v1) (V m c main_v10) (V m c main_v2) (V m c main_v11)
    (V m c main_v9) (V m c main_v12)

/-- WHAT POINT `t` WRITES BACK is its band of rows of `padArr`. -/
theorem flushed_eq (c : Dev nD) (t : Fin cfg0.N) :
    (dats m 0 c).flushed 7 t = ((cfg0.win 7).blk t).view.read (Elt Ideal) (padArr m c) := by
  show (cfg0.win 7).cut (grid0.coords t) ((dats m 0 c).after 7 t) = _
  rw [after0_7]
  unfold out0_7
  rw [View.canon_unit_zero hz]
  simp only [View.ld_unit_zero (S := S64x12544) hz, View.ld_unit_zero (S := S12544x1024) hz, View.ld_unit_zero (S := S1x1024) hz,
    View.ld_unit_zero (S := S1024x1024) hz, View.ld_unit_zero (S := S1024x384) hz, View.ld_unit_zero (S := S1x384) hz]
  funext j
  obtain ⟨p, q, rfl⟩ : ∃ (p : Fin 64) (q : Fin 384), j = ix2 p q := ⟨j 0, j 1, eq_ix2 j⟩
  show k0_pay1 (F := Ideal) (iblk m c 0 t) (iblk m c 1 t) (iblk m c 2 t) (iblk m c 3 t) (iblk m c 4 t) (iblk m c 5 t) (iblk m c 6 t) (ix2 p q)
    = padArr m c (((cfg0.win 7).blk t).view.emb (ix2 p q))
  refine (pay_apply (iblk m c 0 t) (iblk m c 1 t) (iblk m c 2 t) (iblk m c 3 t) (iblk m c 4 t) (iblk m c 5 t) (iblk m c 6 t) p q).trans ?_
  rw [emb7 t p q]
  simp only [blk0 m c t, blk1 m c t, blk2 m c t, blk3 m c t, blk4 m c t, blk5 m c t, blk6 m c t]
  rfl

/-- An entry is in point `t`'s band iff each coordinate is in the band's range. -/
theorem mem_blk7 (t : Fin cfg0.N) (i : S4096x384.Idx) :
    i ∈ ((cfg0.win 7).blk t).view.set ↔ ∀ a : Fin 2, win0_7.index t a * S64x384.size a ≤ (i a).val ∧ (i a).val < win0_7.index t a * S64x384.size a + S64x384.size a := by
  show i ∈ ((View.whole main_v13).slice (win0_7.rect t)).set ↔ _
  rw [View.set_slice_whole, Rect.mem_set_unit]
  exact Iff.rfl

/-- The bands tile the array: row `r` is in the band of point `r / 64`. -/
theorem cover7 (i : S4096x384.Idx) : ∃ t : Fin cfg0.N, (cfg0.win 7).flush t = true ∧ i ∈ ((cfg0.win 7).blk t).view.set := by
  have hi0 : (i 0).val < 4096 := (i 0).isLt
  have hi1 : (i 1).val < 384 := (i 1).isLt
  have hN : cfg0.N = 64 := N_0
  have ht : (i 0).val / 64 < cfg0.N := by rw [hN]; omega
  refine ⟨⟨(i 0).val / 64, ht⟩, flush0_7 _, ?_⟩
  rw [mem_blk7]
  obtain ⟨e0, e1⟩ := idx7 ⟨(i 0).val / 64, ht⟩
  intro a
  match a with
  | ⟨0, _⟩ =>
    show win0_7.index ⟨(i 0).val / 64, ht⟩ (0 : Fin 2) * 64 ≤ (i 0).val ∧ (i 0).val < win0_7.index ⟨(i 0).val / 64, ht⟩ (0 : Fin 2) * 64 + 64
    rw [e0]; show (i 0).val / 64 * 64 ≤ (i 0).val ∧ (i 0).val < (i 0).val / 64 * 64 + 64; omega
  | ⟨1, _⟩ =>
    show win0_7.index ⟨(i 0).val / 64, ht⟩ (1 : Fin 2) * 384 ≤ (i 1).val ∧ (i 1).val < win0_7.index ⟨(i 0).val / 64, ht⟩ (1 : Fin 2) * 384 + 384
    rw [e1]; omega

/-- THE OUTPUT ARRAY AFTER THE REGION is `padArr`. -/
theorem final7 (c : Dev nD) : (dats m 0 c).arrAt 7 cfg0.N = padArr m c :=
  (dats m 0 c).arrAt_eq_of_cover 7 (padArr m c) (fun t _ => flushed_eq m c t) cover7

end Cert.KernelValue

end
-- ==== Proof.KernelResult.lean ====
/-
  The kernel program's result, and its run.

  After the region the program keeps the first 324 of the 384 columns of the region's output array. That array holds,
  at `(r, q)`, the perceptron of feature row `r` at column `q` of the widened last layer (KernelValue); a column below
  324 of the last layer reads only that column of the widened weights and that entry of the widened bias, which are
  the argument's (KernelHostPrefix); and the other operands are the arguments themselves. So the result is the
  perceptron of the argument arrays, entry by entry — the same function the reference computes.
-/
import proofs.«170674_j57166014709942_2_alg».proof.Proof.KernelValue

set_option maxRecDepth 16384

noncomputable section

namespace Cert.KernelResult

open Idealize.ShloMosaic Idealize.ShloMosaic.TcCoe Idealize.ShloMosaic.ValueIdx Idealize.SL.Sem
open Cert.KernelIdeal Cert.KernelIdeal.Gen Cert.MlpSpec Cert.KernelHostPrefix Cert.KernelValue

variable (m : (ℓ : Loc nD τ sig) → Buf (Elt Ideal) ℓ) (ρ : Dev nD → PrngReg)

/-- The result buffer after the lines that follow the region: the first 324 columns of the region's output array. -/
theorem tail_eq (c : Dev nD) :
    Pipeline.afterTail₀ cfgs (dats m) 0 (V0 m) [hostOps1] c main_v14
      = extractStridedSlice S4096x324 ![0, 0] (padArr m c) slices_S4096x384_S4096x324_0_0 := by
  unfold Pipeline.afterTail₀
  show StableHlo.after hostOps1 _ (Proc.devRef .tc main_v14) = _
  after_results
  exact congrArg (fun X => extractStridedSlice S4096x324 ![0, 0] X slices_S4096x384_S4096x324_0_0)
    ((Pipeline.withArrays_arr spec0 launch0.win.arr_inj c (V0 m c) (fun w => (dats m 0 c).arrAt w cfg0.N) 7).trans (final7 m c))

/-- The perceptron of the argument arrays: what both programs end holding. -/
def result (c : Dev nD) : S4096x324.Idx → EReal :=
  mlpArray (shapeCast S4096x12544 (m ((c.tc : Thread nD τ).loc main_arg0)) shapeCasts_S4096x7x7x256_S4096x12544)
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))

/-- THE FIRST 324 COLUMNS of the region's output array are the perceptron of the arguments. -/
theorem slice_eq (c : Dev nD) :
    extractStridedSlice S4096x324 ![0, 0] (padArr m c) slices_S4096x384_S4096x324_0_0 = result m c := by
  funext i
  obtain ⟨r, q, rfl⟩ : ∃ (r : Fin 4096) (q : Fin 324), i = ix2 r q := ⟨i 0, i 1, eq_ix2 i⟩
  have hq : q.val < 384 := by have := q.isLt; omega
  rw [slice2_axis1_apply 0 (padArr m c) slices_S4096x384_S4096x324_0_0 r q ⟨q.val, hq⟩ (Nat.zero_add _).symm]
  unfold padArr mlpRowsArray result mlpArray
  simp only [v1_apply m c, v2_apply m c, v10_apply m c, v11_apply m c, V_v0 m c]
  exact out_congr_col _ _ _ _ _ _ _ _ _ q ⟨q.val, hq⟩ (fun k => v9_apply m c k q hq) (v12_apply m c q hq)

/-! ## The run -/

/-- At the ideal values every weakly fair execution of the kernel program terminates with its result buffer at the
    perceptron of the argument arrays and the arguments unchanged: the generated frame run, its post read at the result
    (the lines after the region, then the region's output array) and at the arguments. -/
theorem run : θ_run defs (onTc (τ := τ) (main (F := Ideal))) ⟨m, fun _ => 0, ρ⟩ (fun r => ∀ c : Dev nD,
      r.2.mem ((c.tc : Thread nD τ).loc main_v14) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).2 main_v14 (Pipeline.mem_restRefs_of main_v14 (by decide) (by decide))).trans ((tail_eq m c).trans (slice_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.KernelResult

end
-- ==== Proof.lean ====
/-
  The kernel and its reference compute one function: a three-layer perceptron, row by row.

  Both take 4096 feature rows of 12544 values, apply `x ↦ max (x · w1 + b1) 0`, then `h ↦ max (h · w2 + b2) 0`, then
  `h ↦ h · w3 + b3` (324 columns). The reference does it with three whole matrix products. The kernel does it 64 rows at
  a time, with the weights rounded to a narrow float format on the way into each product (the identity on the extended
  reals) and the last layer widened to 384 columns by zero padding, of which it keeps the first 324. Column `q < 324` of
  the last layer reads only column `q` of the weights and entry `q` of the bias, which the padding leaves as they were,
  and a sum of products is the same sum whatever tiling computed it: no cancellation or distribution is used, so the
  two results are equal on all extended reals and the precondition is never opened.

  * MlpSpec: the perceptron of a row, and the result array as one function of the argument arrays.
  * RefIsSpec: the reference's result is that function (the generated run and read-at-an-index lemmas, layer by layer).
  * KernelPayload: what the kernel body stores from its blocks, at an entry.
  * KernelHostPrefix, LibScatterSet: the arrays the region is handed, entry by entry (the zero padding in particular).
  * KernelValue, KernelResult: the 64 row bands tile the region's output; the program's result is its first 324
    columns; the kernel program's run.
  The three frames are the generated ones (the reference's is its generated run with the result dropped); the ideal pass
  rewrote nothing, so there is nothing to preserve.
-/
import proofs.«170674_j57166014709942_2_alg».proof.Defs
import proofs.«170674_j57166014709942_2_alg».proof.Proof.Gen.Kernel
import proofs.«170674_j57166014709942_2_alg».proof.Proof.Gen.Kernel.Skeleton
import proofs.«170674_j57166014709942_2_alg».proof.Proof.Gen.Kernel.Launch
import proofs.«170674_j57166014709942_2_alg».proof.Proof.Gen.Kernel.Points
import proofs.«170674_j57166014709942_2_alg».proof.Proof.Gen.Kernel.Frame
import proofs.«170674_j57166014709942_2_alg».proof.Proof.Gen.KernelIdeal
import proofs.«170674_j57166014709942_2_alg».proof.Proof.Gen.KernelIdeal.Skeleton
import proofs.«170674_j57166014709942_2_alg».proof.Proof.Gen.KernelIdeal.Launch
import proofs.«170674_j57166014709942_2_alg».proof.Proof.Gen.KernelIdeal.Points
import proofs.«170674_j57166014709942_2_alg».proof.Proof.Gen.KernelIdeal.Frame
import proofs.«170674_j57166014709942_2_alg».proof.Proof.Gen.ReferenceIdeal
import proofs.«170674_j57166014709942_2_alg».proof.Proof.Gen.Pre_finite_inputs
import proofs.«170674_j57166014709942_2_alg».proof.Proof.Gen.ReferenceIdeal.Run
import proofs.«170674_j57166014709942_2_alg».proof.Proof.Gen.ReferenceIdeal.Read
import proofs.«170674_j57166014709942_2_alg».proof.Proof.RefIsSpec
import proofs.«170674_j57166014709942_2_alg».proof.Proof.KernelResult
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel is the kernel's own text: no rewrite to account for. -/
theorem preserves : Cert.preserves_Kernel_KernelIdeal := trivial

/-- From memories that agree on the arguments both programs end with the perceptron of those arguments in their
    result buffers: the kernel by its run, the reference by its generated run read as the same function. -/
theorem algebraic : Cert.algebraic_KernelIdeal_ReferenceIdeal := by
  intro m ρ m' ρ' _ hagree
  refine ⟨fun c => Cert.KernelResult.result m c, Cert.KernelResult.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.RefIsSpec.result_eq, (hagree c).1, (hagree c).2.2.1, (hagree c).2.2.2.1,
    (hagree c).2.2.2.2.1, (hagree c).2.2.2.2.2.1, (hagree c).2.2.2.2.2.2.1, (hagree c).2.2.2.2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
